-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x56x56x128 : Shape := ⟨4, ![16, 56, 56, 128]⟩
abbrev S58982 : Shape := ⟨1, ![58982]⟩
abbrev S256 : Shape := ⟨1, ![256]⟩
abbrev S58982x2 : Shape := ⟨2, ![58982, 2]⟩
abbrev S_ : Shape := ⟨0, ![]⟩

class Facts : Prop where
  bcast_S_S16x56x56x128 : S_.BroadcastsInDim S16x56x56x128 (![] : Fin 0 → Fin S16x56x56x128.rank)
  reducesTo_S16x56x56x128_S_d0_1_2_3 : S16x56x56x128.ReducesTo [0, 1, 2, 3] S_
  h_S_ : 0 < S_.numel
  bcast_S_S58982 : S_.BroadcastsInDim S58982 (![] : Fin 0 → Fin S58982.rank)
  reducesTo_S58982_S_d0 : S58982.ReducesTo [0] S_
  bcast_S_S256 : S_.BroadcastsInDim S256 (![] : Fin 0 → Fin S256.rank)
  reducesTo_S256_S_d0 : S256.ReducesTo [0] S_

variable [Facts]

def fn {F : FTy → Type} [FloatOps F] (main_arg0 : FVec F S16x56x56x128 .f32) (main_arg1 : FVec F S58982 .f32) (main_arg2 : FVec F S256 .f32) (main_arg3 : IVec S58982x2 32) : IVec S_ 1 :=
  let main_v0 : FVec F S16x56x56x128 .f32 := Host.absf main_arg0
  let main_cst : FVec F S_ .f32 := constant S_ .f32 0x7F800000#32
  let main_v1 : FVec F S16x56x56x128 .f32 := broadcastInDim S16x56x56x128 ![] bcast_S_S16x56x56x128 main_cst
  let main_v2 : IVec S16x56x56x128 1 := cmpf .olt main_v0 main_v1
  let main_c : IVec S_ 1 := constantI S_ 1 1#1
  let main_v3 : IVec S_ 1 := (fun x v => Host.reduce IntOp.andi x v reducesTo_S16x56x56x128_S_d0_1_2_3 h_S_) main_v2 main_c
  let main_v4 : FVec F S58982 .f32 := Host.absf main_arg1
  let main_cst_0 : FVec F S_ .f32 := constant S_ .f32 0x7F800000#32
  let main_v5 : FVec F S58982 .f32 := broadcastInDim S58982 ![] bcast_S_S58982 main_cst_0
  let main_v6 : IVec S58982 1 := cmpf .olt main_v4 main_v5
  let main_c_1 : IVec S_ 1 := constantI S_ 1 1#1
  let main_v7 : IVec S_ 1 := (fun x v => Host.reduce IntOp.andi x v reducesTo_S58982_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S16x56x56x128 : Shape := ⟨4, ![16, 56, 56, 128]⟩
abbrev S58982 : Shape := ⟨1, ![58982]⟩
abbrev S256 : Shape := ⟨1, ![256]⟩
abbrev S58982x2 : Shape := ⟨2, ![58982, 2]⟩
abbrev S_ : Shape := ⟨0, ![]⟩
abbrev S1152x256 : Shape := ⟨2, ![1152, 256]⟩
abbrev S58982x1 : Shape := ⟨2, ![58982, 1]⟩
abbrev S1x256 : Shape := ⟨2, ![1, 256]⟩
abbrev S16x54x54x256 : Shape := ⟨4, ![16, 54, 54, 256]⟩
abbrev S1x56x56x128 : Shape := ⟨4, ![1, 56, 56, 128]⟩
abbrev S1x54x54x256 : Shape := ⟨4, ![1, 54, 54, 256]⟩
abbrev S2916x1152 : Shape := ⟨2, ![2916, 1152]⟩
abbrev S1x54x54x128 : Shape := ⟨4, ![1, 54, 54, 128]⟩
abbrev S54x54x128 : Shape := ⟨3, ![54, 54, 128]⟩
abbrev S2916x128 : Shape := ⟨2, ![2916, 128]⟩
abbrev S2916x256 : Shape := ⟨2, ![2916, 256]⟩
abbrev S54x54x256 : Shape := ⟨3, ![54, 54, 256]⟩

abbrev nBuf : Space → Nat
  | .hbm => 31
  | .vmem => 7
  | .smem => 0
  | _ => 0

abbrev bufTy : (tb : Table) → Fin (tcTables nBuf tb) → BufTy
  | .hbm, ⟨0, _⟩ => ⟨S16x56x56x128, .f32⟩
  | .hbm, ⟨1, _⟩ => ⟨S58982, .f32⟩
  | .hbm, ⟨2, _⟩ => ⟨S256, .f32⟩
  | .hbm, ⟨3, _⟩ => ⟨S58982x2, .i32⟩
  | .hbm, ⟨4, _⟩ => ⟨S_, .f32⟩
  | .hbm, ⟨5, _⟩ => ⟨S1152x256, .f32⟩
  | .hbm, ⟨6, _⟩ => ⟨S58982x1, .i32⟩
  | .hbm, ⟨7, _⟩ => ⟨S58982, .i32⟩
  | .hbm, ⟨8, _⟩ => ⟨S58982x1, .i32⟩
  | .hbm, ⟨9, _⟩ => ⟨S58982, .i32⟩
  | .hbm, ⟨10, _⟩ => ⟨S_, .i32⟩
  | .hbm, ⟨11, _⟩ => ⟨S58982, .i32⟩
  | .hbm, ⟨12, _⟩ => ⟨S58982, .i1⟩
  | .hbm, ⟨13, _⟩ => ⟨S_, .i32⟩
  | .hbm, ⟨14, _⟩ => ⟨S58982, .i32⟩
  | .hbm, ⟨15, _⟩ => ⟨S58982, .i32⟩
  | .hbm, ⟨16, _⟩ => ⟨S58982, .i32⟩
  | .hbm, ⟨17, _⟩ => ⟨S_, .i32⟩
  | .hbm, ⟨18, _⟩ => ⟨S58982, .i32⟩
  | .hbm, ⟨19, _⟩ => ⟨S58982, .i1⟩
  | .hbm, ⟨20, _⟩ => ⟨S_, .i32⟩
  | .hbm, ⟨21, _⟩ => ⟨S58982, .i32⟩
  | .hbm, ⟨22, _⟩ => ⟨S58982, .i32⟩
  | .hbm, ⟨23, _⟩ => ⟨S58982, .i32⟩
  | .hbm, ⟨24, _⟩ => ⟨S58982x1, .i32⟩
  | .hbm, ⟨25, _⟩ => ⟨S58982x1, .i32⟩
  | .hbm, ⟨26, _⟩ => ⟨S58982x2, .i32⟩
  | .hbm, ⟨27, _⟩ => ⟨S1152x256, .f32⟩
  | .hbm, ⟨28, _⟩ => ⟨S1152x256, .bf16⟩
  | .hbm, ⟨29, _⟩ => ⟨S1x256, .f32⟩
  | .hbm, ⟨30, _⟩ => ⟨S16x54x54x256, .f32⟩
  | .local _ .vmem, ⟨0, _⟩ => ⟨S1x56x56x128, .f32⟩
  | .local _ .vmem, ⟨1, _⟩ => ⟨S1x56x56x128, .f32⟩
  | .local _ .vmem, ⟨2, _⟩ => ⟨S1152x256, .bf16⟩
  | .local _ .vmem, ⟨3, _⟩ => ⟨S1x256, .f32⟩
  | .local _ .vmem, ⟨4, _⟩ => ⟨S1x54x54x256, .f32⟩
  | .local _ .vmem, ⟨5, _⟩ => ⟨S1x54x54x256, .f32⟩
  | .local _ .vmem, ⟨6, _⟩ => ⟨S2916x1152, .bf16⟩
  | _, _ => ⟨S16x56x56x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x56x56x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x54x54x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1152x256 : S_.BroadcastsInDim S1152x256 (![] : Fin 0 → Fin S1152x256.rank)
  slices_S58982x2_S58982x1_0_0 : S58982x2.Slices ![0, 0] S58982x1
  shapeCasts_S58982x1_S58982 : S58982x1.ShapeCasts S58982
  slices_S58982x2_S58982x1_0_1 : S58982x2.Slices ![0, 1] S58982x1
  bcast_S_S58982 : S_.BroadcastsInDim S58982 (![] : Fin 0 → Fin S58982.rank)
  bcast_S58982_S58982x1_0 : S58982.BroadcastsInDim S58982x1 (![0] : Fin 1 → Fin S58982x1.rank)
  concatenates_S58982x1_S58982x1_S58982x2_d1 : Shape.Concatenates [S58982x1, S58982x1] S58982x2 1
  bitsLt_bf16_f32 : FTy.bits .bf16 < FTy.bits .f32
  shapeCasts_S256_S1x256 : S256.ShapeCasts S1x256
  inb_S1x56x56x128_S1x54x54x128_0_0_0_0 : ∀ a, (![0, 0, 0, 0] : Fin 4 → Nat) a + S1x54x54x128.size a ≤ S1x56x56x128.size a
  h_S1x54x54x128 : 0 < S1x54x54x128.numel
  shapeCasts_S1x54x54x128_S54x54x128 : S1x54x54x128.ShapeCasts S54x54x128
  shapeCasts_S54x54x128_S2916x128 : S54x54x128.ShapeCasts S2916x128
  inb_S2916x1152_S2916x128_0_0 : ∀ a, (![0, 0] : Fin 2 → Nat) a + S2916x128.size a ≤ S2916x1152.size a
  h_S2916x128 : 0 < S2916x128.numel
  shapeCasts_S2916x128_S2916x128 : S2916x128.ShapeCasts S2916x128
  packedbf16_S2916x1152_S2916x128_0_0 : (Rect.unit (s := S2916x1152) ![0, 0] S2916x128.size inb_S2916x1152_S2916x128_0_0).PackedRows (EltTy.packing .bf16)
  inb_S1x56x56x128_S1x54x54x128_0_0_1_0 : ∀ a, (![0, 0, 1, 0] : Fin 4 → Nat) a + S1x54x54x128.size a ≤ S1x56x56x128.size a
  inb_S2916x1152_S2916x128_0_128 : ∀ a, (![0, 128] : Fin 2 → Nat) a + S2916x128.size a ≤ S2916x1152.size a
  packedbf16_S2916x1152_S2916x128_0_128 : (Rect.unit (s := S2916x1152) ![0, 128] S2916x128.size inb_S2916x1152_S2916x128_0_128).PackedRows (EltTy.packing .bf16)
  inb_S1x56x56x128_S1x54x54x128_0_0_2_0 : ∀ a, (![0, 0, 2, 0] : Fin 4 → Nat) a + S1x54x54x128.size a ≤ S1x56x56x128.size a
  inb_S2916x1152_S2916x128_0_256 : ∀ a, (![0, 256] : Fin 2 → Nat) a + S2916x128.size a ≤ S2916x1152.size a
  packedbf16_S2916x1152_S2916x128_0_256 : (Rect.unit (s := S2916x1152) ![0, 256] S2916x128.size inb_S2916x1152_S2916x128_0_256).PackedRows (EltTy.packing .bf16)
  inb_S1x56x56x128_S1x54x54x128_0_1_0_0 : ∀ a, (![0, 1, 0, 0] : Fin 4 → Nat) a + S1x54x54x128.size a ≤ S1x56x56x128.size a
  inb_S2916x1152_S2916x128_0_384 : ∀ a, (![0, 384] : Fin 2 → Nat) a + S2916x128.size a ≤ S2916x1152.size a
  packedbf16_S2916x1152_S2916x128_0_384 : (Rect.unit (s := S2916x1152) ![0, 384] S2916x128.size inb_S2916x1152_S2916x128_0_384).PackedRows (EltTy.packing .bf16)
  inb_S1x56x56x128_S1x54x54x128_0_1_1_0 : ∀ a, (![0, 1, 1, 0] : Fin 4 → Nat) a + S1x54x54x128.size a ≤ S1x56x56x128.size a
  inb_S2916x1152_S2916x128_0_512 : ∀ a, (![0, 512] : Fin 2 → Nat) a + S2916x128.size a ≤ S2916x1152.size a
  packedbf16_S2916x1152_S2916x128_0_512 : (Rect.unit (s := S2916x1152) ![0, 512] S2916x128.size inb_S2916x1152_S2916x128_0_512).PackedRows (EltTy.packing .bf16)
  inb_S1x56x56x128_S1x54x54x128_0_1_2_0 : ∀ a, (![0, 1, 2, 0] : Fin 4 → Nat) a + S1x54x54x128.size a ≤ S1x56x56x128.size a
  inb_S2916x1152_S2916x128_0_640 : ∀ a, (![0, 640] : Fin 2 → Nat) a + S2916x128.size a ≤ S2916x1152.size a
  packedbf16_S2916x1152_S2916x128_0_640 : (Rect.unit (s := S2916x1152) ![0, 640] S2916x128.size inb_S2916x1152_S2916x128_0_640).PackedRows (EltTy.packing .bf16)
  inb_S1x56x56x128_S1x54x54x128_0_2_0_0 : ∀ a, (![0, 2, 0, 0] : Fin 4 → Nat) a + S1x54x54x128.size a ≤ S1x56x56x128.size a
  inb_S2916x1152_S2916x128_0_768 : ∀ a, (![0, 768] : Fin 2 → Nat) a + S2916x128.size a ≤ S2916x1152.size a
  packedbf16_S2916x1152_S2916x128_0_768 : (Rect.unit (s := S2916x1152) ![0, 768] S2916x128.size inb_S2916x1152_S2916x128_0_768).PackedRows (EltTy.packing .bf16)
  inb_S1x56x56x128_S1x54x54x128_0_2_1_0 : ∀ a, (![0, 2, 1, 0] : Fin 4 → Nat) a + S1x54x54x128.size a ≤ S1x56x56x128.size a
  inb_S2916x1152_S2916x128_0_896 : ∀ a, (![0, 896] : Fin 2 → Nat) a + S2916x128.size a ≤ S2916x1152.size a
  packedbf16_S2916x1152_S2916x128_0_896 : (Rect.unit (s := S2916x1152) ![0, 896] S2916x128.size inb_S2916x1152_S2916x128_0_896).PackedRows (EltTy.packing .bf16)
  inb_S1x56x56x128_S1x54x54x128_0_2_2_0 : ∀ a, (![0, 2, 2, 0] : Fin 4 → Nat) a + S1x54x54x128.size a ≤ S1x56x56x128.size a
  inb_S2916x1152_S2916x128_0_1024 : ∀ a, (![0, 1024] : Fin 2 → Nat) a + S2916x128.size a ≤ S2916x1152.size a
  packedbf16_S2916x1152_S2916x128_0_1024 : (Rect.unit (s := S2916x1152) ![0, 1024] S2916x128.size inb_S2916x1152_S2916x128_0_1024).PackedRows (EltTy.packing .bf16)
  inb_S2916x1152_S2916x1152_0_0 : ∀ a, (![0, 0] : Fin 2 → Nat) a + S2916x1152.size a ≤ S2916x1152.size a
  h_S2916x1152 : 0 < S2916x1152.numel
  inb_S1152x256_S1152x256_0_0 : ∀ a, (![0, 0] : Fin 2 → Nat) a + S1152x256.size a ≤ S1152x256.size a
  h_S1152x256 : 0 < S1152x256.numel
  shapeCasts_S1152x256_S1152x256 : S1152x256.ShapeCasts S1152x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2916x256 : S1x256.Broadcasts S2916x256
  shapeCasts_S2916x256_S54x54x256 : S2916x256.ShapeCasts S54x54x256
  inb_S1x54x54x256_S1x54x54x256_0_0_0_0 : ∀ a, (![0, 0, 0, 0] : Fin 4 → Nat) a + S1x54x54x256.size a ≤ S1x54x54x256.size a
  h_S1x54x54x256 : 0 < S1x54x54x256.numel
  shapeCasts_S1x54x54x256_S54x54x256 : S1x54x54x256.ShapeCasts S54x54x256
  shapeCasts_S54x54x256_S1x54x54x256 : S54x54x256.ShapeCasts S1x54x54x256
  scatter_S1152x256_S58982x2_S58982_n_01_01_1_wf : ScatterDims.WF S1152x256 S58982x2 S58982 [] [0, 1] [0, 1] 1
  dot_S2916x1152_S1152x256_S2916x256_1_0_0_1_n_n_wf : DotDims.WF S2916x1152 S1152x256 S2916x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x56x56x128.size a ≤ S16x56x56x128.size a
  hwx0_0 : ∀ i : grid0.Coords, EltTy.bits .f32 = 32 ∨ (Rect.block (s := S16x56x56x128) S1x56x56x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1152x256.size a ≤ S1152x256.size a
  hwx0_1 : ∀ i : grid0.Coords, EltTy.bits .bf16 = 32 ∨ (Rect.block (s := S1152x256) S1152x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x54x54x256.size a ≤ S16x54x54x256.size a
  hwx0_3 : ∀ i : grid0.Coords, EltTy.bits .f32 = 32 ∨ (Rect.block (s := S16x54x54x256) S1x54x54x256.size (cc0_transform_3 i) (hinb0_3 i)).WholeWords (EltTy.packing .f32)

variable [Facts₀]

def scatter_S1152x256_S58982x2_S58982_n_01_01_1 : ScatterDims S1152x256 S58982x2 S58982 where
  updateWindowDims := []
  insertedWindowDims := [0, 1]
  scatterDimsToOperandDims := [0, 1]
  indexVectorDim := 1
  wf := scatter_S1152x256_S58982x2_S58982_n_01_01_1_wf
def dot_S2916x1152_S1152x256_S2916x256_1_0_0_1_n_n : DotDims S2916x1152 S1152x256 S2916x256 where
  lhsContracting := [1]
  rhsContracting := [0]
  lhsNonContracting := [0]
  rhsNonContracting := [1]
  lhsBatch := []
  rhsBatch := []
  wf := dot_S2916x1152_S1152x256_S2916x256_1_0_0_1_n_n_wf

abbrev win0_0 : Pipeline.Window sig grid0 :=
  Pipeline.Window.ofSpec (Memref.whole main_arg0) S1x56x56x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1152x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x54x54x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x56x56x128 : Shape := ⟨4, ![16, 56, 56, 128]⟩
abbrev S58982 : Shape := ⟨1, ![58982]⟩
abbrev S256 : Shape := ⟨1, ![256]⟩
abbrev S58982x2 : Shape := ⟨2, ![58982, 2]⟩
abbrev S16x54x54x128 : Shape := ⟨4, ![16, 54, 54, 128]⟩
abbrev S16x54x54x1152 : Shape := ⟨4, ![16, 54, 54, 1152]⟩
abbrev S46656x1152 : Shape := ⟨2, ![46656, 1152]⟩
abbrev S_ : Shape := ⟨0, ![]⟩
abbrev S1152x256 : Shape := ⟨2, ![1152, 256]⟩
abbrev S58982x1 : Shape := ⟨2, ![58982, 1]⟩
abbrev S46656x256 : Shape := ⟨2, ![46656, 256]⟩
abbrev S1x256 : Shape := ⟨2, ![1, 256]⟩
abbrev S16x54x54x256 : Shape := ⟨4, ![16, 54, 54, 256]⟩

abbrev nBuf : Space → Nat
  | .hbm => 47
  | .vmem => 0
  | .smem => 0
  | _ => 0

abbrev bufTy : (tb : Table) → Fin (tcTables nBuf tb) → BufTy
  | .hbm, ⟨0, _⟩ => ⟨S16x56x56x128, .f32⟩
  | .hbm, ⟨1, _⟩ => ⟨S58982, .f32⟩
  | .hbm, ⟨2, _⟩ => ⟨S256, .f32⟩
  | .hbm, ⟨3, _⟩ => ⟨S58982x2, .i32⟩
  | .hbm, ⟨4, _⟩ => ⟨S16x54x54x128, .f32⟩
  | .hbm, ⟨5, _⟩ => ⟨S16x54x54x128, .f32⟩
  | .hbm, ⟨6, _⟩ => ⟨S16x54x54x128, .f32⟩
  | .hbm, ⟨7, _⟩ => ⟨S16x54x54x128, .f32⟩
  | .hbm, ⟨8, _⟩ => ⟨S16x54x54x128, .f32⟩
  | .hbm, ⟨9, _⟩ => ⟨S16x54x54x128, .f32⟩
  | .hbm, ⟨10, _⟩ => ⟨S16x54x54x128, .f32⟩
  | .hbm, ⟨11, _⟩ => ⟨S16x54x54x128, .f32⟩
  | .hbm, ⟨12, _⟩ => ⟨S16x54x54x128, .f32⟩
  | .hbm, ⟨13, _⟩ => ⟨S16x54x54x1152, .f32⟩
  | .hbm, ⟨14, _⟩ => ⟨S46656x1152, .f32⟩
  | .hbm, ⟨15, _⟩ => ⟨S_, .f32⟩
  | .hbm, ⟨16, _⟩ => ⟨S1152x256, .f32⟩
  | .hbm, ⟨17, _⟩ => ⟨S58982x1, .i32⟩
  | .hbm, ⟨18, _⟩ => ⟨S58982, .i32⟩
  | .hbm, ⟨19, _⟩ => ⟨S58982x1, .i32⟩
  | .hbm, ⟨20, _⟩ => ⟨S58982, .i32⟩
  | .hbm, ⟨21, _⟩ => ⟨S_, .i32⟩
  | .hbm, ⟨22, _⟩ => ⟨S58982, .i32⟩
  | .hbm, ⟨23, _⟩ => ⟨S58982, .i1⟩
  | .hbm, ⟨24, _⟩ => ⟨S_, .i32⟩
  | .hbm, ⟨25, _⟩ => ⟨S58982, .i32⟩
  | .hbm, ⟨26, _⟩ => ⟨S58982, .i32⟩
  | .hbm, ⟨27, _⟩ => ⟨S58982, .i32⟩
  | .hbm, ⟨28, _⟩ => ⟨S_, .i32⟩
  | .hbm, ⟨29, _⟩ => ⟨S58982, .i32⟩
  | .hbm, ⟨30, _⟩ => ⟨S58982, .i1⟩
  | .hbm, ⟨31, _⟩ => ⟨S_, .i32⟩
  | .hbm, ⟨32, _⟩ => ⟨S58982, .i32⟩
  | .hbm, ⟨33, _⟩ => ⟨S58982, .i32⟩
  | .hbm, ⟨34, _⟩ => ⟨S58982, .i32⟩
  | .hbm, ⟨35, _⟩ => ⟨S58982x1, .i32⟩
  | .hbm, ⟨36, _⟩ => ⟨S58982x1, .i32⟩
  | .hbm, ⟨37, _⟩ => ⟨S58982x2, .i32⟩
  | .hbm, ⟨38, _⟩ => ⟨S1152x256, .f32⟩
  | .hbm, ⟨39, _⟩ => ⟨S46656x256, .f32⟩
  | .hbm, ⟨40, _⟩ => ⟨S1x256, .f32⟩
  | .hbm, ⟨41, _⟩ => ⟨S46656x256, .f32⟩
  | .hbm, ⟨42, _⟩ => ⟨S46656x256, .f32⟩
  | .hbm, ⟨43, _⟩ => ⟨S_, .f32⟩
  | .hbm, ⟨44, _⟩ => ⟨S46656x256, .f32⟩
  | .hbm, ⟨45, _⟩ => ⟨S46656x256, .f32⟩
  | .hbm, ⟨46, _⟩ => ⟨S16x54x54x256, .f32⟩
  | _, _ => ⟨S16x56x56x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_c_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_call0_cst : Ref sig .tc := ⟨.hbm, 43, rfl⟩
abbrev main_call0_v0 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]

class Facts₀ : Prop where
  slices_S16x56x56x128_S16x54x54x128_0_0_0_0 : S16x56x56x128.Slices ![0, 0, 0, 0] S16x54x54x128
  slices_S16x56x56x128_S16x54x54x128_0_0_1_0 : S16x56x56x128.Slices ![0, 0, 1, 0] S16x54x54x128
  slices_S16x56x56x128_S16x54x54x128_0_0_2_0 : S16x56x56x128.Slices ![0, 0, 2, 0] S16x54x54x128
  slices_S16x56x56x128_S16x54x54x128_0_1_0_0 : S16x56x56x128.Slices ![0, 1, 0, 0] S16x54x54x128
  slices_S16x56x56x128_S16x54x54x128_0_1_1_0 : S16x56x56x128.Slices ![0, 1, 1, 0] S16x54x54x128
  slices_S16x56x56x128_S16x54x54x128_0_1_2_0 : S16x56x56x128.Slices ![0, 1, 2, 0] S16x54x54x128
  slices_S16x56x56x128_S16x54x54x128_0_2_0_0 : S16x56x56x128.Slices ![0, 2, 0, 0] S16x54x54x128
  slices_S16x56x56x128_S16x54x54x128_0_2_1_0 : S16x56x56x128.Slices ![0, 2, 1, 0] S16x54x54x128
  slices_S16x56x56x128_S16x54x54x128_0_2_2_0 : S16x56x56x128.Slices ![0, 2, 2, 0] S16x54x54x128
  concatenates_S16x54x54x128_S16x54x54x128_S16x54x54x128_S16x54x54x128_S16x54x54x128_S16x54x54x128_S16x54x54x128_S16x54x54x128_S16x54x54x128_S16x54x54x1152_d3 : Shape.Concatenates [S16x54x54x128, S16x54x54x128, S16x54x54x128, S16x54x54x128, S16x54x54x128, S16x54x54x128, S16x54x54x128, S16x54x54x128, S16x54x54x128] S16x54x54x1152 3
  shapeCasts_S16x54x54x1152_S46656x1152 : S16x54x54x1152.ShapeCasts S46656x1152
  bcast_S_S1152x256 : S_.BroadcastsInDim S1152x256 (![] : Fin 0 → Fin S1152x256.rank)
  slices_S58982x2_S58982x1_0_0 : S58982x2.Slices ![0, 0] S58982x1
  shapeCasts_S58982x1_S58982 : S58982x1.ShapeCasts S58982
  slices_S58982x2_S58982x1_0_1 : S58982x2.Slices ![0, 1] S58982x1
  bcast_S_S58982 : S_.BroadcastsInDim S58982 (![] : Fin 0 → Fin S58982.rank)
  bcast_S58982_S58982x1_0 : S58982.BroadcastsInDim S58982x1 (![0] : Fin 1 → Fin S58982x1.rank)
  concatenates_S58982x1_S58982x1_S58982x2_d1 : Shape.Concatenates [S58982x1, S58982x1] S58982x2 1
  bcast_S256_S1x256_1 : S256.BroadcastsInDim S1x256 (![1] : Fin 1 → Fin S1x256.rank)
  bcast_S1x256_S46656x256_0_1 : S1x256.BroadcastsInDim S46656x256 (![0, 1] : Fin 2 → Fin S46656x256.rank)
  bcast_S_S46656x256 : S_.BroadcastsInDim S46656x256 (![] : Fin 0 → Fin S46656x256.rank)
  shapeCasts_S46656x256_S16x54x54x256 : S46656x256.ShapeCasts S16x54x54x256
  scatter_S1152x256_S58982x2_S58982_n_01_01_1_wf : ScatterDims.WF S1152x256 S58982x2 S58982 [] [0, 1] [0, 1] 1
  dot_S46656x1152_S1152x256_S46656x256_1_0_0_1_n_n_wf : DotDims.WF S46656x1152 S1152x256 S46656x256 [1] [0] [0] [1] [] []

variable [Facts₀]

def scatter_S1152x256_S58982x2_S58982_n_01_01_1 : ScatterDims S1152x256 S58982x2 S58982 where
  updateWindowDims := []
  insertedWindowDims := [0, 1]
  scatterDimsToOperandDims := [0, 1]
  indexVectorDim := 1
  wf := scatter_S1152x256_S58982x2_S58982_n_01_01_1_wf
def dot_S46656x1152_S1152x256_S46656x256_1_0_0_1_n_n : DotDims S46656x1152 S1152x256 S46656x256 where
  lhsContracting := [1]
  rhsContracting := [0]
  lhsNonContracting := [0]
  rhsNonContracting := [1]
  lhsBatch := []
  rhsBatch := []
  wf := dot_S46656x1152_S1152x256_S46656x256_1_0_0_1_n_n_wf

class Facts : Prop extends Facts₀ where

variable [Facts]
-- ==== Proof.ConvSpec.lean ====
/-
  A 3×3 "valid" convolution with bias and ReLU, written as ONE matrix product.

  For a 56×56 image with 128 channels and a 3×3 filter bank with 256 outputs, output pixel (a, b) of filter n is
      max( Σ_{di,dj,ch} img[a + di, b + dj, ch] · W[(3·di + dj)·128 + ch, n] + bias[n], 0 ).
  Flattening (di, dj, ch) to one column index  k = (3·di + dj)·128 + ch  (tap-major, channel fastest; 0 ≤ k < 1152)
  gives  di = k / 384,  dj = (k / 128) % 3,  ch = k % 128,  and the triple sum becomes Σ_k P[(a,b), k] · W[k, n] over the
  PATCH MATRIX  P[(a,b), k] = img[a + k/384, b + (k/128)%3, k%128].  Everything below is stated index by index over the
  extended reals, where sums and products are exact; only this column layout is used, never the value of W.
-/
import Idealize.ShloMosaic.PureOps.Ideal
import Idealize.ShloMosaic.Lib.ValueIdx

noncomputable section

namespace Cert.ConvSpec

open Idealize.ShloMosaic Idealize.ShloMosaic.ValueIdx

/-- The image row that column `k` of the patch matrix reads for output row `a`: `a + di`, `di = k / 384`. -/
abbrev tapRow (a : Fin 54) (k : Fin 1152) : Fin 56 :=
  ⟨a.val + k.val / 384, by have := a.isLt; have := k.isLt; omega⟩

/-- The image column it reads for output column `b`: `b + dj`, `dj = (k / 128) % 3`. -/
abbrev tapCol (b : Fin 54) (k : Fin 1152) : Fin 56 :=
  ⟨b.val + k.val / 128 % 3, by have := b.isLt; omega⟩

/-- The channel it reads: `k % 128`. -/
abbrev tapCh (k : Fin 1152) : Fin 128 := ⟨k.val % 128, Nat.mod_lt _ (by decide)⟩

/-- One output entry from its patch row `p`, its filter column `w` and its bias `β`:
    the inner product plus the bias, clamped below at zero. -/
def cell (p w : Fin 1152 → EReal) (β : EReal) : EReal :=
  max ((∑ k : Fin 1152, p k * w k) + β) (Ideal.ofBits .f32 0x00000000#32)

/-- The convolution of ONE image (a block with a leading unit axis), filter matrix `W`, bias row `β`. -/
def convBlock (img : FVec Ideal ⟨4, ![1, 56, 56, 128]⟩ .f32) (W : FVec Ideal ⟨2, ![1152, 256]⟩ .bf16)
    (β : FVec Ideal ⟨2, ![1, 256]⟩ .f32) : FVec Ideal ⟨4, ![1, 54, 54, 256]⟩ .f32 := fun j =>
  cell (fun k => img (ix4 0 (tapRow (j 1) k) (tapCol (j 2) k) (tapCh k))) (fun k => W (ix2 k (j 3))) (β (ix2 0 (j 3)))

/-- The convolution of the whole batch of 16 images: entry (s, a, b, n). -/
def conv (x : FVec Ideal ⟨4, ![16, 56, 56, 128]⟩ .f32) (W : FVec Ideal ⟨2, ![1152, 256]⟩ .f32)
    (β : FVec Ideal ⟨1, ![256]⟩ .f32) : FVec Ideal ⟨4, ![16, 54, 54, 256]⟩ .f32 := fun i =>
  cell (fun k => x (ix4 (i 0) (tapRow (i 1) k) (tapCol (i 2) k) (tapCh k))) (fun k => W (ix2 k (i 3))) (β (ix1 (i 3)))

end Cert.ConvSpec

end
-- ==== Proof.Body.lean ====
/-
  What one grid point leaves in its output block: the convolution of that point's image.

  The body first fills a 2916 × 1152 scratch matrix strip by strip: for each filter tap (di, dj) it copies the shifted
  54 × 54 × 128 window  img[di + ·, dj + ·, ·]  of the image block, flattened to 2916 rows (row r is pixel (r / 54, r % 54)),
  into the 128 columns starting at (3·di + dj)·128. Entry (r, ch) of that strip is therefore
  img[r/54 + di, r%54 + dj, ch], and since column k = (3·di + dj)·128 + ch has di = k/384, dj = (k/128)%3, ch = k%128,
  ALL nine strips are restrictions of ONE function of the matrix index (r, k):
      slab[r, k] = img[r/54 + k/384, r%54 + (k/128)%3, k%128]      — the patch matrix of ConvSpec.
  The nine strips tile the matrix, so reading the whole matrix back reads this function. The body then forms
  slab · W (one product over all 1152 columns, into a zero accumulator, so just the sum), adds the bias row to every row,
  clamps at zero, and stores row r of the result at pixel (r / 54, r % 54) of the output block. At the exact extended
  reals the narrowing of the image entries and of W to the shorter float format is the identity, so this is
  ConvSpec.convBlock of the three input blocks.
-/
import proofs.«143364_j59949153517679_2_alg».proof.Proof.Gen.KernelIdeal.Frame
import proofs.«143364_j59949153517679_2_alg».proof.Proof.ConvSpec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen Cert.ConvSpec

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## The scratch matrix -/

/-- A strip's payload: the loaded window `v` flattened to rows. Entry (r, ch) is pixel (r / 54, r % 54), channel ch. -/
theorem relay_apply (v : Vec Ideal S1x54x54x128 .f32) (r : Fin 2916) (ch : Fin 128) :
    k0_pay3 (F := Ideal) v (ix2 r ch)
      = v (ix4 0 ⟨r.val / 54, by have := r.isLt; omega⟩ ⟨r.val % 54, Nat.mod_lt _ (by decide)⟩ ch) := by
  unfold k0_pay3
  rw [shapeCast_self]
  show shapeCast S2916x128 (shapeCast S54x54x128 v shapeCasts_S1x54x54x128_S54x54x128) shapeCasts_S54x54x128_S2916x128 (ix2 r ch) = _
  rw [shapeCast_apply _ shapeCasts_S54x54x128_S2916x128 (ix2 r ch)
    (ix3 ⟨r.val / 54, by have := r.isLt; omega⟩ ⟨r.val % 54, Nat.mod_lt _ (by decide)⟩ ch)
    (by rw [Shape.rowMajor_val_three, Shape.rowMajor_val_two]
        show (r.val / 54 * 54 + r.val % 54) * 128 + ch.val = r.val * 128 + ch.val
        have := r.isLt; omega)]
  exact shapeCast_apply v shapeCasts_S1x54x54x128_S54x54x128 _
    (ix4 0 ⟨r.val / 54, by have := r.isLt; omega⟩ ⟨r.val % 54, Nat.mod_lt _ (by decide)⟩ ch)
    (by rw [Shape.rowMajor_val_four, Shape.rowMajor_val_three]
        show ((0 * 54 + r.val / 54) * 54 + r.val % 54) * 128 + ch.val = (r.val / 54 * 54 + r.val % 54) * 128 + ch.val
        omega)

/-- The window of the image block loaded for tap (di, dj): pixel (a, b) of it is pixel (a + di, b + dj) of the image. -/
theorem ld_tap (x0 : Vec Ideal S1x56x56x128 .f32) (di dj : Nat) (hdi : di ≤ 2) (hdj : dj ≤ 2)
    (inb : ∀ a, (![0, di, dj, 0] : Fin 4 → Nat) a + S1x54x54x128.size a ≤ S1x56x56x128.size a)
    (a b : Fin 54) (ch : Fin 128) :
    View.ld x0 (Rect.unit (s := S1x56x56x128) ![0, di, dj, 0] S1x54x54x128.size inb) (ix4 0 a b ch)
      = x0 (ix4 0 ⟨a.val + di, by have := a.isLt; omega⟩ ⟨b.val + dj, by have := b.isLt; omega⟩ ch) := by
  show x0 _ = x0 _
  congr 1
  funext d; apply Fin.ext
  match d with
  | ⟨0, _⟩ => show 0 + 1 * 0 = 0; rfl
  | ⟨1, _⟩ => show di + 1 * a.val = a.val + di; omega
  | ⟨2, _⟩ => show dj + 1 * b.val = b.val + dj; omega
  | ⟨3, _⟩ => show 0 + 1 * ch.val = ch.val; omega

/-- The patch matrix of the image block, as a function of the scratch matrix's index (r, k). -/
def slabFn (x0 : Vec Ideal S1x56x56x128 .f32) : Vec Ideal S2916x1152 .bf16 := fun y =>
  x0 (ix4 0 ⟨(y 0).val / 54 + (y 1).val / 384, by
        have h0 : (y 0).val < 2916 := (y 0).isLt
        have h1 : (y 1).val < 1152 := (y 1).isLt
        omega⟩
    ⟨(y 0).val % 54 + (y 1).val / 128 % 3, by omega⟩ ⟨(y 1).val % 128, Nat.mod_lt _ (by decide)⟩)

/-- The strip of tap (di, dj), stored at columns (3·di + dj)·128 + ·, is the patch matrix there. -/
theorem strip_ok (x0 : Vec Ideal S1x56x56x128 .f32) (w : Vec Ideal S2916x128 .bf16) (u : Vec Ideal S1x54x54x128 .f32)
    (di dj : Nat) (hdi : di ≤ 2) (hdj : dj ≤ 2) (hw : w = k0_pay3 (F := Ideal) u)
    (hu : ∀ (a b : Fin 54) (ch : Fin 128), u (ix4 0 a b ch)
      = x0 (ix4 0 ⟨a.val + di, by have := a.isLt; omega⟩ ⟨b.val + dj, by have := b.isLt; omega⟩ ch))
    (x : S2916x128.Idx) (y : S2916x1152.Idx) (hy0 : (y 0).val = (x 0).val)
    (hy1 : (y 1).val = (3 * di + dj) * 128 + (x 1).val) :
    w x = slabFn x0 y := by
  subst hw
  obtain ⟨r, ch, rfl⟩ : ∃ (r : Fin 2916) (ch : Fin 128), x = ix2 r ch := ⟨x 0, x 1, eq_ix2 x⟩
  have hy0' : (y 0).val = r.val := hy0
  have hy1' : (y 1).val = (3 * di + dj) * 128 + ch.val := hy1
  rw [relay_apply, hu]
  unfold slabFn
  congr 1
  funext d; apply Fin.ext
  have h0 : r.val < 2916 := r.isLt
  have h1 : ch.val < 128 := ch.isLt
  match d with
  | ⟨0, _⟩ => rfl
  | ⟨1, _⟩ => show r.val / 54 + di = (y 0).val / 54 + (y 1).val / 384; omega
  | ⟨2, _⟩ => show r.val % 54 + dj = (y 0).val % 54 + (y 1).val / 128 % 3; omega
  | ⟨3, _⟩ => show ch.val = (y 1).val % 128; omega

/-! ## The product, the bias and the clamp -/

theorem lhs0 (j : S2916x256.Idx) (q : dot_S2916x1152_S1152x256_S2916x256_1_0_0_1_n_n.contr.Idx) : (dot_S2916x1152_S1152x256_S2916x256_1_0_0_1_n_n.lhsIdx j q 0).val = (j 0).val := by
  unfold DotDims.lhsIdx
  rw [dif_neg (show ¬(0 : Fin S2916x1152.rank) ∈ dot_S2916x1152_S1152x256_S2916x256_1_0_0_1_n_n.lhsBatch by decide), dif_pos (show (0 : Fin S2916x1152.rank) ∈ dot_S2916x1152_S1152x256_S2916x256_1_0_0_1_n_n.lhsNonContracting by decide)]
  rfl
theorem lhs1 (j : S2916x256.Idx) (q : dot_S2916x1152_S1152x256_S2916x256_1_0_0_1_n_n.contr.Idx) : (dot_S2916x1152_S1152x256_S2916x256_1_0_0_1_n_n.lhsIdx j q 1).val = (q ⟨0, by decide⟩).val :=
  dot_S2916x1152_S1152x256_S2916x256_1_0_0_1_n_n.lhsIdx_val_of_single rfl j q
theorem rhs0 (j : S2916x256.Idx) (q : dot_S2916x1152_S1152x256_S2916x256_1_0_0_1_n_n.contr.Idx) : (dot_S2916x1152_S1152x256_S2916x256_1_0_0_1_n_n.rhsIdx j q 0).val = (q ⟨0, by decide⟩).val :=
  dot_S2916x1152_S1152x256_S2916x256_1_0_0_1_n_n.rhsIdx_val_of_single rfl j q
theorem rhs1 (j : S2916x256.Idx) (q : dot_S2916x1152_S1152x256_S2916x256_1_0_0_1_n_n.contr.Idx) : (dot_S2916x1152_S1152x256_S2916x256_1_0_0_1_n_n.rhsIdx j q 1).val = (j 1).val := by
  unfold DotDims.rhsIdx
  rw [dif_neg (show ¬(1 : Fin S1152x256.rank) ∈ dot_S2916x1152_S1152x256_S2916x256_1_0_0_1_n_n.rhsBatch by decide), dif_pos (show (1 : Fin S1152x256.rank) ∈ dot_S2916x1152_S1152x256_S2916x256_1_0_0_1_n_n.rhsNonContracting by decide)]
  rfl

/-- The product into a zero accumulator, entry (r, n): the plain sum over the 1152 columns. -/
theorem product_apply (S : FVec Ideal S2916x1152 .bf16) (W : FVec Ideal S1152x256 .bf16) (r : Fin 2916) (n : Fin 256) :
    matmul (F := Ideal) (φ₁ := .bf16) (φ₂ := .bf16) dot_S2916x1152_S1152x256_S2916x256_1_0_0_1_n_n none S W (constant S2916x256 .f32 0x00000000#32) (ix2 r n)
      = ∑ k : Fin 1152, S (ix2 r k) * W (ix2 k n) := by
  simp only [matmul]
  rw [Ideal.matmul_constant_zero_apply, ← Equiv.sum_comp (contrEquiv1 dot_S2916x1152_S1152x256_S2916x256_1_0_0_1_n_n 1152 rfl rfl).symm]
  refine Finset.sum_congr rfl fun k _ => ?_
  have hk := contrEquiv1_symm_val dot_S2916x1152_S1152x256_S2916x256_1_0_0_1_n_n 1152 rfl rfl k
  have el : dot_S2916x1152_S1152x256_S2916x256_1_0_0_1_n_n.lhsIdx (ix2 r n) ((contrEquiv1 dot_S2916x1152_S1152x256_S2916x256_1_0_0_1_n_n 1152 rfl rfl).symm k) = ix2 r k := funext fun a => Fin.ext (by
    match a with
    | ⟨0, _⟩ => exact lhs0 _ _
    | ⟨1, _⟩ => exact (lhs1 _ _).trans hk)
  have er : dot_S2916x1152_S1152x256_S2916x256_1_0_0_1_n_n.rhsIdx (ix2 r n) ((contrEquiv1 dot_S2916x1152_S1152x256_S2916x256_1_0_0_1_n_n 1152 rfl rfl).symm k) = ix2 k n := funext fun a => Fin.ext (by
    match a with
    | ⟨0, _⟩ => exact (rhs0 _ _).trans hk
    | ⟨1, _⟩ => exact rhs1 _ _)
  rw [el, er]

/-- The stored value at pixel (a, b), filter n: row a·54 + b of the product plus the bias, clamped at zero. -/
theorem pay2_apply (S : Vec Ideal S2916x1152 .bf16) (W : Vec Ideal S1152x256 .bf16) (β : Vec Ideal S1x256 .f32)
    (a b : Fin 54) (n : Fin 256) :
    k0_pay2 (F := Ideal) S W β (ix4 0 a b n)
      = cell (fun k => S (ix2 ⟨a.val * 54 + b.val, by have := a.isLt; have := b.isLt; omega⟩ k)) (fun k => W (ix2 k n)) (β (ix2 0 n)) := by
  unfold k0_pay2
  refine (shapeCast_apply _ shapeCasts_S54x54x256_S1x54x54x256 (ix4 0 a b n) (ix3 a b n)
    (by rw [Shape.rowMajor_val_three, Shape.rowMajor_val_four]
        show (a.val * 54 + b.val) * 256 + n.val = ((0 * 54 + a.val) * 54 + b.val) * 256 + n.val
        omega)).trans ?_
  refine (shapeCast_apply _ shapeCasts_S2916x256_S54x54x256 (ix3 a b n)
    (ix2 ⟨a.val * 54 + b.val, by have := a.isLt; have := b.isLt; omega⟩ n)
    (by rw [Shape.rowMajor_val_two, Shape.rowMajor_val_three]
        show (a.val * 54 + b.val) * 256 + n.val = (a.val * 54 + b.val) * 256 + n.val
        rfl)).trans ?_
  unfold cell
  refine congrArg₂ max (congrArg₂ (· + ·) ?_ ?_) rfl
  · rw [shapeCast_self]
    exact product_apply S W _ n
  · rw [shapeCast_self]
    exact broadcastTo_apply β broadcasts_S1x256_S2916x256 _ (ix2 0 n) (fun d => by
      match d with
      | ⟨0, _⟩ => show 0 = if (1 : Nat) = 1 then 0 else _; rw [if_pos rfl]
      | ⟨1, _⟩ => show n.val = if (256 : Nat) = 1 then 0 else n.val; rw [if_neg (by decide)])

/-! ## What the body leaves in the output block -/

/-- On any staging buffers, from the image block `x0`, the filter matrix `x1` and the bias row `x2`, the body leaves the
    convolution of the image in the output block. -/
theorem out_eq (c : Dev nD) (i : grid0.Coords) (arg1 : Memref sig .tc .vmem S1x56x56x128 .f32) (harg1 : arg1.IsWhole) (arg2 : Memref sig .tc .vmem S1152x256 .bf16) (harg2 : arg2.IsWhole) (arg3 : Memref sig .tc .vmem S1x256 .f32) (harg3 : arg3.IsWhole) (arg4 : Memref sig .tc .vmem S1x54x54x256 .f32) (harg4 : arg4.IsWhole) (arg5 : Memref sig .tc .vmem S2916x1152 .bf16) (harg5 : arg5.IsWhole)
    (x0 : Vec Ideal S1x56x56x128 .f32) (x1 : Vec Ideal S1152x256 .bf16) (x2 : Vec Ideal S1x256 .f32) :
    out0_A_3 (F := Ideal) c i arg1 harg1 arg2 harg2 arg3 harg3 arg4 harg4 arg5 harg5 x0 x1 x2 = convBlock x0 x1 x2 := by
  unfold out0_A_3
  rw [View.read_writes_eq_canon _ _ _ (cover0_A_3 c i arg1 harg1 arg2 harg2 arg3 harg3 arg4 harg4 arg5 harg5 x0 x1 x2)]
  unfold kernelRun0_A
  dsimp only
  sl_unfold_words
  rw [View.canon_unit_zero hz4]
  simp only [View.readAt_eq_ld, harg1.read_unread, harg2.read_unread, harg3.read_unread,
    View.ld_unit_zero (S := S1152x256) hz2, View.ld_unit_zero (S := S1x256) hz2]
  rw [View.readCov_eq_canon']
  funext j
  obtain ⟨a, b, n, rfl⟩ : ∃ (a b : Fin 54) (n : Fin 256), j = ix4 0 a b n :=
    ⟨j 1, j 2, j 3, funext fun d => by
      match d with
      | ⟨0, _⟩ => exact Fin.ext (by have h : (j 0).val < 1 := (j 0).isLt; show (j 0).val = 0; omega)
      | ⟨1, _⟩ => rfl
      | ⟨2, _⟩ => rfl
      | ⟨3, _⟩ => rfl⟩
  rw [pay2_apply]
  unfold convBlock
  refine congrArg (fun p => cell p _ _) (funext fun k => ?_)
  have hB : (Rect.unit (s := S2916x1152) ![0, 0] ![2916, 1152] inb_S2916x1152_S2916x1152_0_0).toLoadRect.idx
      (ix2 ⟨a.val * 54 + b.val, by have := a.isLt; have := b.isLt; omega⟩ k)
      = ix2 ⟨a.val * 54 + b.val, by have := a.isLt; have := b.isLt; omega⟩ k := by
    funext d; apply Fin.ext
    match d with
    | ⟨0, _⟩ => show 0 + 1 * (a.val * 54 + b.val) = a.val * 54 + b.val; omega
    | ⟨1, _⟩ => show 0 + 1 * k.val = k.val; omega
  show View.canon _ _ = _
  rw [hB]
  refine (View.canon_apply_of_pieces (slabFn x0) _ ?_ _ ?_).trans ?_
  · intro p hp
    simp only [List.mem_cons, List.mem_nil_iff, or_false] at hp
    rcases hp with rfl | rfl | rfl | rfl | rfl | rfl | rfl | rfl | rfl
    · intro x
      exact strip_ok x0 _ _ 2 2 (by omega) (by omega) rfl (fun a b ch => ld_tap x0 2 2 (by omega) (by omega) _ a b ch) x _
        (by show 0 + 1 * (x 0).val = (x 0).val; omega)
        (by show 1024 + 1 * (x 1).val = (3 * 2 + 2) * 128 + (x 1).val; omega)
    · intro x
      exact strip_ok x0 _ _ 2 1 (by omega) (by omega) rfl (fun a b ch => ld_tap x0 2 1 (by omega) (by omega) _ a b ch) x _
        (by show 0 + 1 * (x 0).val = (x 0).val; omega)
        (by show 896 + 1 * (x 1).val = (3 * 2 + 1) * 128 + (x 1).val; omega)
    · intro x
      exact strip_ok x0 _ _ 2 0 (by omega) (by omega) rfl (fun a b ch => ld_tap x0 2 0 (by omega) (by omega) _ a b ch) x _
        (by show 0 + 1 * (x 0).val = (x 0).val; omega)
        (by show 768 + 1 * (x 1).val = (3 * 2 + 0) * 128 + (x 1).val; omega)
    · intro x
      exact strip_ok x0 _ _ 1 2 (by omega) (by omega) rfl (fun a b ch => ld_tap x0 1 2 (by omega) (by omega) _ a b ch) x _
        (by show 0 + 1 * (x 0).val = (x 0).val; omega)
        (by show 640 + 1 * (x 1).val = (3 * 1 + 2) * 128 + (x 1).val; omega)
    · intro x
      exact strip_ok x0 _ _ 1 1 (by omega) (by omega) rfl (fun a b ch => ld_tap x0 1 1 (by omega) (by omega) _ a b ch) x _
        (by show 0 + 1 * (x 0).val = (x 0).val; omega)
        (by show 512 + 1 * (x 1).val = (3 * 1 + 1) * 128 + (x 1).val; omega)
    · intro x
      exact strip_ok x0 _ _ 1 0 (by omega) (by omega) rfl (fun a b ch => ld_tap x0 1 0 (by omega) (by omega) _ a b ch) x _
        (by show 0 + 1 * (x 0).val = (x 0).val; omega)
        (by show 384 + 1 * (x 1).val = (3 * 1 + 0) * 128 + (x 1).val; omega)
    · intro x
      exact strip_ok x0 _ _ 0 2 (by omega) (by omega) rfl (fun a b ch => ld_tap x0 0 2 (by omega) (by omega) _ a b ch) x _
        (by show 0 + 1 * (x 0).val = (x 0).val; omega)
        (by show 256 + 1 * (x 1).val = (3 * 0 + 2) * 128 + (x 1).val; omega)
    · intro x
      exact strip_ok x0 _ _ 0 1 (by omega) (by omega) rfl (fun a b ch => ld_tap x0 0 1 (by omega) (by omega) _ a b ch) x _
        (by show 0 + 1 * (x 0).val = (x 0).val; omega)
        (by show 128 + 1 * (x 1).val = (3 * 0 + 1) * 128 + (x 1).val; omega)
    · intro x
      exact strip_ok x0 _ _ 0 0 (by omega) (by omega) rfl (fun a b ch => ld_tap x0 0 0 (by omega) (by omega) _ a b ch) x _
        (by show 0 + 1 * (x 0).val = (x 0).val; omega)
        (by show 0 + 1 * (x 1).val = (3 * 0 + 0) * 128 + (x 1).val; omega)
  · exact View.cover_of_tiledL (s := S2916x1152) _ ![2916, 128] (by sl_kernel_rfl) _
  · unfold slabFn
    congr 1
    funext d; apply Fin.ext
    have ha : a.val < 54 := a.isLt
    have hb : b.val < 54 := b.isLt
    have hk : k.val < 1152 := k.isLt
    match d with
    | ⟨0, _⟩ => rfl
    | ⟨1, _⟩ => show (a.val * 54 + b.val) / 54 + k.val / 384 = a.val + k.val / 384; omega
    | ⟨2, _⟩ => show (a.val * 54 + b.val) % 54 + k.val / 128 % 3 = b.val + k.val / 128 % 3; omega
    | ⟨3, _⟩ => rfl

end Cert.KernelIdeal.Body

end
-- ==== Proof.Entry.lean ====
/-
  What the launch finds in its input arrays.

  Before the launch the program builds the dense 1152 × 256 filter matrix from the sparse data: a zero matrix to which each
  value kernel[p] is ADDED at position (row[p], col[p]) — negative positions first wrapped by the extent — and reshapes the
  256 biases to a 1 × 256 row. The reference builds its filter matrix by the very same sequence of operations on the same
  two arguments, so nothing about that matrix is needed beyond its being the same function of (kernel, indices) on both
  sides: it is named here by the reference's own stage for it and never opened. The narrowing of the matrix to the shorter
  float format is the identity on the extended reals.
-/
import proofs.«143364_j59949153517679_2_alg».proof.Proof.Gen.KernelIdeal.Frame
import proofs.«143364_j59949153517679_2_alg».proof.Proof.Gen.ReferenceIdeal.Read
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.ValueIdx Idealize.ShloMosaic.StableHlo

namespace Cert.KernelIdeal.Entry

open Cert.KernelIdeal Cert.KernelIdeal.Gen

variable (m : (ℓ : Loc nD τ sig) → Buf (Elt Ideal) ℓ)

set_option maxRecDepth 8192 in
set_option maxHeartbeats 2000000 in
/-- The filter matrix the launch stages: the scattered sum of the sparse values, as a function of the two arguments. -/
theorem filters_eq (c : Dev nD) :
    (V m c main_v19 : S1152x256.Idx → EReal)
      = Cert.ReferenceIdeal.Read.val_main_v29 (F := Ideal) (m ((c : Thread nD τ).loc main_arg1)) (m ((c : Thread nD τ).loc main_arg3)) := by
  dsimp only [Gen.V, Gen.hostOps0]; after_results_simp <;> rfl

set_option maxRecDepth 8192 in
set_option maxHeartbeats 2000000 in
/-- The bias row the launch stages is the bias argument: entry (0, n) is bias n. -/
theorem bias_apply (c : Dev nD) (n : Fin 256) :
    (V m c main_v20 : S1x256.Idx → EReal) (ix2 0 n) = m ((c : Thread nD τ).loc main_arg2) (ix1 n) := by
  have e : (V m c main_v20 : S1x256.Idx → EReal)
      = shapeCast S1x256 (m ((c : Thread nD τ).loc main_arg2)) shapeCasts_S256_S1x256 := by
    dsimp only [Gen.V, Gen.hostOps0]; after_results_simp <;> rfl
  rw [e]
  exact shapeCast_apply _ shapeCasts_S256_S1x256 (ix2 0 n) (ix1 n)
    (by rw [Shape.rowMajor_val_one, Shape.rowMajor_val_two]; show n.val = 0 * 256 + n.val; omega)

end Cert.KernelIdeal.Entry

end
-- ==== Proof.Result.lean ====
/-
  From the blocks to the whole result array.

  The launch has 16 points, one per image of the batch. Point s stages image s (a 1 × 56 × 56 × 128 block of the input), the
  whole filter matrix and the whole bias row (the same block at every point), and writes back the 1 × 54 × 54 × 256 block s
  of the result. By Body.lean that block is the convolution of image s; entry (0, a, b, n) of it reads image entries
  (0, a + di, b + dj, ch), which are entries (s, a + di, b + dj, ch) of the input array, and it is written to entry
  (s, a, b, n) of the result. So every written block is the restriction of ONE function of the argument arrays
  (ConvSpec.conv), the 16 blocks cover the result array (index (s, ·, ·, ·) lies in point s's block), and the result array
  ends holding that function.
-/
import proofs.«143364_j59949153517679_2_alg».proof.Proof.Gen.KernelIdeal.Value
import proofs.«143364_j59949153517679_2_alg».proof.Proof.Body
import proofs.«143364_j59949153517679_2_alg».proof.Proof.Entry

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.ConvSpec

variable (m : (ℓ : Loc nD τ sig) → Buf (Elt Ideal) ℓ) (ρ : Dev nD → PrngReg)

/-- The result array: the batch convolution of the input argument with the staged filter matrix and the bias argument. -/
abbrev result (c : Dev nD) : Buf (Elt Ideal) ((c : Thread nD τ).loc main_v21) :=
  conv (m ((c : Thread nD τ).loc main_arg0)) (V m c main_v19) (m ((c : Thread nD τ).loc main_arg2))

/-- Where each window's block sits at point `t`, decided over the 16 points: the image block and the result block move
    together along the batch axis and sit at the origin of every other axis; the filter matrix and the bias row never move. -/
theorem idx_facts : ∀ t : Fin cfg0.N,
    win0_0.index t (0 : Fin 4) = win0_3.index t (0 : Fin 4)
    ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 4) = 0 ∧ win0_3.index t (2 : Fin 4) = 0 ∧ win0_3.index t (3 : Fin 4) = 0
    ∧ win0_3.index t (0 : Fin 4) ≤ 15 :=
  (by decide +kernel : ∀ t : Fin grid0.N, _)

/-- Every image of the batch is some point's. -/
theorem idx_onto : ∀ s : Fin 16, ∃ t : Fin cfg0.N, win0_3.index t = ![s.val, 0, 0, 0] :=
  (by decide +kernel : ∀ s : Fin 16, ∃ t : Fin grid0.N, win0_3.index t = ![s.val, 0, 0, 0])

/-- What point `t` writes back is block `t` of the batch convolution. -/
theorem flushed_eq (c : Dev nD) (t : Fin cfg0.N) :
    (dats m 0 c).flushed 3 t = ((cfg0.win 3).blk t).view.read (Elt Ideal) (result m c) := by
  rw [Value.flushed3_A,
    Body.out_eq c (grid0.coords t) (ms0_0 t) (hs0_0 t) (ms0_1 t) (hs0_1 t) (ms0_2 t) (hs0_2 t) (ms0_3 t) (hs0_3 t)
      scM0_0 (Memref.isWhole_whole _) (iblk m c 0 t) (iblk m c 1 t) (iblk m c 2 t)]
  obtain ⟨e00, e01, e02, e03, e10, e11, e20, e21, e31, e32, e33, e3b⟩ := idx_facts t
  funext j
  have hj0 : (j 0).val < 1 := (j 0).isLt
  have hj1 : (j 1).val < 54 := (j 1).isLt
  have hj2 : (j 2).val < 54 := (j 2).isLt
  have hj3 : (j 3).val < 256 := (j 3).isLt
  show convBlock (iblk m c 0 t) (iblk m c 1 t) (iblk m c 2 t) j
    = conv (m ((c : Thread nD τ).loc main_arg0)) (V m c main_v19) (m ((c : Thread nD τ).loc main_arg2))
        (((cfg0.win 3).blk t).view.emb j)
  unfold convBlock conv
  have hp : ∀ k : Fin 1152, iblk m c 0 t (ix4 0 (tapRow (j 1) k) (tapCol (j 2) k) (tapCh k))
      = m ((c : Thread nD τ).loc main_arg0) (ix4 ((((cfg0.win 3).blk t).view.emb j) 0)
          (tapRow ((((cfg0.win 3).blk t).view.emb j) 1) k) (tapCol ((((cfg0.win 3).blk t).view.emb j) 2) k) (tapCh k)) := fun k => by
    have hk : k.val < 1152 := k.isLt
    show V m c main_arg0 (((cfg0.win 0).blk t).view.emb (ix4 0 (tapRow (j 1) k) (tapCol (j 2) k) (tapCh k))) = _
    rw [V_main_arg0 m c]
    congr 1
    funext d; apply Fin.ext
    match d with
    | ⟨0, _⟩ => show win0_0.index t (0 : Fin 4) * 1 + 1 * 0 = win0_3.index t (0 : Fin 4) * 1 + 1 * (j 0).val; omega
    | ⟨1, _⟩ => show win0_0.index t (1 : Fin 4) * 56 + 1 * ((j 1).val + k.val / 384) = win0_3.index t (1 : Fin 4) * 54 + 1 * (j 1).val + k.val / 384; omega
    | ⟨2, _⟩ => show win0_0.index t (2 : Fin 4) * 56 + 1 * ((j 2).val + k.val / 128 % 3) = win0_3.index t (2 : Fin 4) * 54 + 1 * (j 2).val + k.val / 128 % 3; omega
    | ⟨3, _⟩ => show win0_0.index t (3 : Fin 4) * 128 + 1 * (k.val % 128) = k.val % 128; omega
  have hw : ∀ k : Fin 1152, iblk m c 1 t (ix2 k (j 3)) = V m c main_v19 (ix2 k ((((cfg0.win 3).blk t).view.emb j) 3)) := fun k => by
    have hk : k.val < 1152 := k.isLt
    show V m c main_v19 (((cfg0.win 1).blk t).view.emb (ix2 k (j 3))) = _
    congr 1
    funext d; apply Fin.ext
    match d with
    | ⟨0, _⟩ => show win0_1.index t (0 : Fin 2) * 1152 + 1 * k.val = k.val; omega
    | ⟨1, _⟩ => show win0_1.index t (1 : Fin 2) * 256 + 1 * (j 3).val = win0_3.index t (3 : Fin 4) * 256 + 1 * (j 3).val; omega
  have hβ : iblk m c 2 t (ix2 0 (j 3)) = m ((c : Thread nD τ).loc main_arg2) (ix1 ((((cfg0.win 3).blk t).view.emb j) 3)) := by
    have e : ((cfg0.win 2).blk t).view.emb (ix2 0 (j 3)) = ix2 0 ((((cfg0.win 3).blk t).view.emb j) 3) := by
      funext d; apply Fin.ext
      match d with
      | ⟨0, _⟩ => show win0_2.index t (0 : Fin 2) * 1 + 1 * 0 = 0; omega
      | ⟨1, _⟩ => show win0_2.index t (1 : Fin 2) * 256 + 1 * (j 3).val = win0_3.index t (3 : Fin 4) * 256 + 1 * (j 3).val; omega
    show V m c main_v20 (((cfg0.win 2).blk t).view.emb (ix2 0 (j 3))) = _
    rw [e]
    exact Entry.bias_apply m c _
  rw [funext hp, funext hw, hβ]

/-- An index of the result array is in point `t`'s block iff each coordinate is in the block's range on its axis. -/
theorem mem_blk (t : Fin cfg0.N) (i : S16x54x54x256.Idx) :
    i ∈ ((cfg0.win 3).blk t).view.set ↔ ∀ a : Fin 4, win0_3.index t a * S1x54x54x256.size a ≤ (i a).val
      ∧ (i a).val < win0_3.index t a * S1x54x54x256.size a + S1x54x54x256.size a := by
  show i ∈ ((View.whole main_v21).slice (win0_3.rect t)).set ↔ _
  rw [View.set_slice_whole, Rect.mem_set_unit]
  exact Iff.rfl

/-- The result array after the run is the batch convolution: the 16 blocks cover it. -/
theorem final (c : Dev nD) : (dats m 0 c).arrAt 3 cfg0.N = result m c :=
  (dats m 0 c).arrAt_eq_of_cover 3 (result m c) (fun t _ => flushed_eq m c t) fun i => by
    have hi0 : (i 0).val < 16 := (i 0).isLt
    have hi1 : (i 1).val < 54 := (i 1).isLt
    have hi2 : (i 2).val < 54 := (i 2).isLt
    have hi3 : (i 3).val < 256 := (i 3).isLt
    obtain ⟨t, ht⟩ := idx_onto ⟨(i 0).val, hi0⟩
    have q0 : win0_3.index t (0 : Fin 4) = (i 0).val := congrFun ht 0
    have q1 : win0_3.index t (1 : Fin 4) = 0 := congrFun ht 1
    have q2 : win0_3.index t (2 : Fin 4) = 0 := congrFun ht 2
    have q3 : win0_3.index t (3 : Fin 4) = 0 := congrFun ht 3
    refine ⟨t, flush0_3 t, ?_⟩
    rw [mem_blk]
    intro a
    match a with
    | ⟨0, _⟩ => show win0_3.index t (0 : Fin 4) * 1 ≤ (i 0).val ∧ (i 0).val < win0_3.index t (0 : Fin 4) * 1 + 1; omega
    | ⟨1, _⟩ => show win0_3.index t (1 : Fin 4) * 54 ≤ (i 1).val ∧ (i 1).val < win0_3.index t (1 : Fin 4) * 54 + 54; omega
    | ⟨2, _⟩ => show win0_3.index t (2 : Fin 4) * 54 ≤ (i 2).val ∧ (i 2).val < win0_3.index t (2 : Fin 4) * 54 + 54; omega
    | ⟨3, _⟩ => show win0_3.index t (3 : Fin 4) * 256 ≤ (i 3).val ∧ (i 3).val < win0_3.index t (3 : Fin 4) * 256 + 256; omega

/-- The run: every weakly fair execution terminates with the result array at the batch convolution of the arguments — the
    filter matrix the scattered sum of the sparse values — and the arguments unchanged. -/
theorem run : θ_run defs (onTc (τ := τ) (main (F := Ideal))) ⟨m, fun _ => 0, ρ⟩ fun r => ∀ c : Dev nD,
      r.2.mem ((c : Thread nD τ).loc main_v21)
        = conv (m ((c : Thread nD τ).loc main_arg0))
            (Cert.ReferenceIdeal.Read.val_main_v29 (F := Ideal) (m ((c : Thread nD τ).loc main_arg1)) (m ((c : Thread nD τ).loc main_arg3)))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by
      show conv _ (V m c main_v19) _ = _
      rw [Entry.filters_eq m c])), (h c).2⟩)
    (Value.run_blocks m ρ)

end Cert.KernelIdeal.Result

end
-- ==== Proof.RefValue.lean ====
/-
  The reference computes the same batch convolution.

  The reference takes the nine shifted 16 × 54 × 54 × 128 windows  x[·, di + ·, dj + ·, ·]  of the input, joins them along
  the channel axis in tap order (so joined channel k comes from window k / 128, at channel k − 128·(k / 128) = k % 128:
  the patch matrix's column layout of ConvSpec), flattens the first three axes to 46656 rows (row (s·54 + a)·54 + b is
  pixel (a, b) of image s), multiplies by the filter matrix, adds the bias to every row, clamps at zero and restores the
  four axes. Read at an index (s, a, b, n) that is ConvSpec.conv. The filter matrix is left as the stage that computes it.
-/
import proofs.«143364_j59949153517679_2_alg».proof.Proof.Gen.ReferenceIdeal.Read
import proofs.«143364_j59949153517679_2_alg».proof.Proof.ConvSpec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.ConvSpec

/-- The nine shifted windows of the input, in tap order (di, dj) = (0,0), (0,1), …, (2,2). -/
abbrev windows (x0 : FVec Ideal S16x56x56x128 .f32) : List ((s : Shape) × (s.Idx → EReal)) :=
  [⟨S16x54x54x128, val_main_v0 (F := Ideal) x0⟩, ⟨S16x54x54x128, val_main_v1 (F := Ideal) x0⟩,
   ⟨S16x54x54x128, val_main_v2 (F := Ideal) x0⟩, ⟨S16x54x54x128, val_main_v3 (F := Ideal) x0⟩,
   ⟨S16x54x54x128, val_main_v4 (F := Ideal) x0⟩, ⟨S16x54x54x128, val_main_v5 (F := Ideal) x0⟩,
   ⟨S16x54x54x128, val_main_v6 (F := Ideal) x0⟩, ⟨S16x54x54x128, val_main_v7 (F := Ideal) x0⟩,
   ⟨S16x54x54x128, val_main_v8 (F := Ideal) x0⟩]

/-- The joined windows at (s, a, b, k): window k / 128 at channel k % 128, that is the input at
    (s, a + k/384, b + (k/128)%3, k%128). -/
theorem patches_apply (x0 : FVec Ideal S16x56x56x128 .f32) (s : Fin 16) (a b : Fin 54) (k : Fin 1152) :
    val_main_v9 (F := Ideal) x0 (ix4 s a b k) = x0 (ix4 s (tapRow a k) (tapCol b k) (tapCh k)) := by
  have hk : k.val < 1152 := k.isLt
  have ha : a.val < 54 := a.isLt
  have hb : b.val < 54 := b.isLt
  unfold val_main_v9
  rcases (by omega : k.val / 128 = 0 ∨ k.val / 128 = 1 ∨ k.val / 128 = 2 ∨ k.val / 128 = 3 ∨ k.val / 128 = 4
      ∨ k.val / 128 = 5 ∨ k.val / 128 = 6 ∨ k.val / 128 = 7 ∨ k.val / 128 = 8) with h | h | h | h | h | h | h | h | h
  · refine (concatenate_apply_piece (α := EReal) (t := S16x54x54x1152) (3 : Fin 4) (windows x0) concatenates_S16x54x54x128_S16x54x54x128_S16x54x54x128_S16x54x54x128_S16x54x54x128_S16x54x54x128_S16x54x54x128_S16x54x54x128_S16x54x54x128_S16x54x54x1152_d3 (ix4 s a b k) 0 (by show 0 < 9; omega) S16x54x54x128
      (val_main_v0 (F := Ideal) x0) rfl rfl 0 rfl (ix4 s a b ⟨k.val - 0, by omega⟩)
      (fun d hd => by
        match d with
        | ⟨0, _⟩ => rfl
        | ⟨1, _⟩ => rfl
        | ⟨2, _⟩ => rfl
        | ⟨3, _⟩ => exact absurd (Fin.ext rfl) hd)
      (by show 0 + (k.val - 0) = k.val; omega)).trans ?_
    rw [val_main_v0_apply]
    congr 1
    funext d; apply Fin.ext
    match d with
    | ⟨0, _⟩ => rfl
    | ⟨1, _⟩ => show a.val = a.val + k.val / 384; omega
    | ⟨2, _⟩ => show b.val = b.val + k.val / 128 % 3; omega
    | ⟨3, _⟩ => show k.val - 0 = k.val % 128; omega
  · refine (concatenate_apply_piece (α := EReal) (t := S16x54x54x1152) (3 : Fin 4) (windows x0) concatenates_S16x54x54x128_S16x54x54x128_S16x54x54x128_S16x54x54x128_S16x54x54x128_S16x54x54x128_S16x54x54x128_S16x54x54x128_S16x54x54x128_S16x54x54x1152_d3 (ix4 s a b k) 1 (by show 1 < 9; omega) S16x54x54x128
      (val_main_v1 (F := Ideal) x0) rfl rfl 128 rfl (ix4 s a b ⟨k.val - 128, by omega⟩)
      (fun d hd => by
        match d with
        | ⟨0, _⟩ => rfl
        | ⟨1, _⟩ => rfl
        | ⟨2, _⟩ => rfl
        | ⟨3, _⟩ => exact absurd (Fin.ext rfl) hd)
      (by show 128 + (k.val - 128) = k.val; omega)).trans ?_
    rw [val_main_v1_apply]
    congr 1
    funext d; apply Fin.ext
    match d with
    | ⟨0, _⟩ => rfl
    | ⟨1, _⟩ => show a.val = a.val + k.val / 384; omega
    | ⟨2, _⟩ => show 1 + b.val = b.val + k.val / 128 % 3; omega
    | ⟨3, _⟩ => show k.val - 128 = k.val % 128; omega
  · refine (concatenate_apply_piece (α := EReal) (t := S16x54x54x1152) (3 : Fin 4) (windows x0) concatenates_S16x54x54x128_S16x54x54x128_S16x54x54x128_S16x54x54x128_S16x54x54x128_S16x54x54x128_S16x54x54x128_S16x54x54x128_S16x54x54x128_S16x54x54x1152_d3 (ix4 s a b k) 2 (by show 2 < 9; omega) S16x54x54x128
      (val_main_v2 (F := Ideal) x0) rfl rfl 256 rfl (ix4 s a b ⟨k.val - 256, by omega⟩)
      (fun d hd => by
        match d with
        | ⟨0, _⟩ => rfl
        | ⟨1, _⟩ => rfl
        | ⟨2, _⟩ => rfl
        | ⟨3, _⟩ => exact absurd (Fin.ext rfl) hd)
      (by show 256 + (k.val - 256) = k.val; omega)).trans ?_
    rw [val_main_v2_apply]
    congr 1
    funext d; apply Fin.ext
    match d with
    | ⟨0, _⟩ => rfl
    | ⟨1, _⟩ => show a.val = a.val + k.val / 384; omega
    | ⟨2, _⟩ => show 2 + b.val = b.val + k.val / 128 % 3; omega
    | ⟨3, _⟩ => show k.val - 256 = k.val % 128; omega
  · refine (concatenate_apply_piece (α := EReal) (t := S16x54x54x1152) (3 : Fin 4) (windows x0) concatenates_S16x54x54x128_S16x54x54x128_S16x54x54x128_S16x54x54x128_S16x54x54x128_S16x54x54x128_S16x54x54x128_S16x54x54x128_S16x54x54x128_S16x54x54x1152_d3 (ix4 s a b k) 3 (by show 3 < 9; omega) S16x54x54x128
      (val_main_v3 (F := Ideal) x0) rfl rfl 384 rfl (ix4 s a b ⟨k.val - 384, by omega⟩)
      (fun d hd => by
        match d with
        | ⟨0, _⟩ => rfl
        | ⟨1, _⟩ => rfl
        | ⟨2, _⟩ => rfl
        | ⟨3, _⟩ => exact absurd (Fin.ext rfl) hd)
      (by show 384 + (k.val - 384) = k.val; omega)).trans ?_
    rw [val_main_v3_apply]
    congr 1
    funext d; apply Fin.ext
    match d with
    | ⟨0, _⟩ => rfl
    | ⟨1, _⟩ => show 1 + a.val = a.val + k.val / 384; omega
    | ⟨2, _⟩ => show b.val = b.val + k.val / 128 % 3; omega
    | ⟨3, _⟩ => show k.val - 384 = k.val % 128; omega
  · refine (concatenate_apply_piece (α := EReal) (t := S16x54x54x1152) (3 : Fin 4) (windows x0) concatenates_S16x54x54x128_S16x54x54x128_S16x54x54x128_S16x54x54x128_S16x54x54x128_S16x54x54x128_S16x54x54x128_S16x54x54x128_S16x54x54x128_S16x54x54x1152_d3 (ix4 s a b k) 4 (by show 4 < 9; omega) S16x54x54x128
      (val_main_v4 (F := Ideal) x0) rfl rfl 512 rfl (ix4 s a b ⟨k.val - 512, by omega⟩)
      (fun d hd => by
        match d with
        | ⟨0, _⟩ => rfl
        | ⟨1, _⟩ => rfl
        | ⟨2, _⟩ => rfl
        | ⟨3, _⟩ => exact absurd (Fin.ext rfl) hd)
      (by show 512 + (k.val - 512) = k.val; omega)).trans ?_
    rw [val_main_v4_apply]
    congr 1
    funext d; apply Fin.ext
    match d with
    | ⟨0, _⟩ => rfl
    | ⟨1, _⟩ => show 1 + a.val = a.val + k.val / 384; omega
    | ⟨2, _⟩ => show 1 + b.val = b.val + k.val / 128 % 3; omega
    | ⟨3, _⟩ => show k.val - 512 = k.val % 128; omega
  · refine (concatenate_apply_piece (α := EReal) (t := S16x54x54x1152) (3 : Fin 4) (windows x0) concatenates_S16x54x54x128_S16x54x54x128_S16x54x54x128_S16x54x54x128_S16x54x54x128_S16x54x54x128_S16x54x54x128_S16x54x54x128_S16x54x54x128_S16x54x54x1152_d3 (ix4 s a b k) 5 (by show 5 < 9; omega) S16x54x54x128
      (val_main_v5 (F := Ideal) x0) rfl rfl 640 rfl (ix4 s a b ⟨k.val - 640, by omega⟩)
      (fun d hd => by
        match d with
        | ⟨0, _⟩ => rfl
        | ⟨1, _⟩ => rfl
        | ⟨2, _⟩ => rfl
        | ⟨3, _⟩ => exact absurd (Fin.ext rfl) hd)
      (by show 640 + (k.val - 640) = k.val; omega)).trans ?_
    rw [val_main_v5_apply]
    congr 1
    funext d; apply Fin.ext
    match d with
    | ⟨0, _⟩ => rfl
    | ⟨1, _⟩ => show 1 + a.val = a.val + k.val / 384; omega
    | ⟨2, _⟩ => show 2 + b.val = b.val + k.val / 128 % 3; omega
    | ⟨3, _⟩ => show k.val - 640 = k.val % 128; omega
  · refine (concatenate_apply_piece (α := EReal) (t := S16x54x54x1152) (3 : Fin 4) (windows x0) concatenates_S16x54x54x128_S16x54x54x128_S16x54x54x128_S16x54x54x128_S16x54x54x128_S16x54x54x128_S16x54x54x128_S16x54x54x128_S16x54x54x128_S16x54x54x1152_d3 (ix4 s a b k) 6 (by show 6 < 9; omega) S16x54x54x128
      (val_main_v6 (F := Ideal) x0) rfl rfl 768 rfl (ix4 s a b ⟨k.val - 768, by omega⟩)
      (fun d hd => by
        match d with
        | ⟨0, _⟩ => rfl
        | ⟨1, _⟩ => rfl
        | ⟨2, _⟩ => rfl
        | ⟨3, _⟩ => exact absurd (Fin.ext rfl) hd)
      (by show 768 + (k.val - 768) = k.val; omega)).trans ?_
    rw [val_main_v6_apply]
    congr 1
    funext d; apply Fin.ext
    match d with
    | ⟨0, _⟩ => rfl
    | ⟨1, _⟩ => show 2 + a.val = a.val + k.val / 384; omega
    | ⟨2, _⟩ => show b.val = b.val + k.val / 128 % 3; omega
    | ⟨3, _⟩ => show k.val - 768 = k.val % 128; omega
  · refine (concatenate_apply_piece (α := EReal) (t := S16x54x54x1152) (3 : Fin 4) (windows x0) concatenates_S16x54x54x128_S16x54x54x128_S16x54x54x128_S16x54x54x128_S16x54x54x128_S16x54x54x128_S16x54x54x128_S16x54x54x128_S16x54x54x128_S16x54x54x1152_d3 (ix4 s a b k) 7 (by show 7 < 9; omega) S16x54x54x128
      (val_main_v7 (F := Ideal) x0) rfl rfl 896 rfl (ix4 s a b ⟨k.val - 896, by omega⟩)
      (fun d hd => by
        match d with
        | ⟨0, _⟩ => rfl
        | ⟨1, _⟩ => rfl
        | ⟨2, _⟩ => rfl
        | ⟨3, _⟩ => exact absurd (Fin.ext rfl) hd)
      (by show 896 + (k.val - 896) = k.val; omega)).trans ?_
    rw [val_main_v7_apply]
    congr 1
    funext d; apply Fin.ext
    match d with
    | ⟨0, _⟩ => rfl
    | ⟨1, _⟩ => show 2 + a.val = a.val + k.val / 384; omega
    | ⟨2, _⟩ => show 1 + b.val = b.val + k.val / 128 % 3; omega
    | ⟨3, _⟩ => show k.val - 896 = k.val % 128; omega
  · refine (concatenate_apply_piece (α := EReal) (t := S16x54x54x1152) (3 : Fin 4) (windows x0) concatenates_S16x54x54x128_S16x54x54x128_S16x54x54x128_S16x54x54x128_S16x54x54x128_S16x54x54x128_S16x54x54x128_S16x54x54x128_S16x54x54x128_S16x54x54x1152_d3 (ix4 s a b k) 8 (by show 8 < 9; omega) S16x54x54x128
      (val_main_v8 (F := Ideal) x0) rfl rfl 1024 rfl (ix4 s a b ⟨k.val - 1024, by omega⟩)
      (fun d hd => by
        match d with
        | ⟨0, _⟩ => rfl
        | ⟨1, _⟩ => rfl
        | ⟨2, _⟩ => rfl
        | ⟨3, _⟩ => exact absurd (Fin.ext rfl) hd)
      (by show 1024 + (k.val - 1024) = k.val; omega)).trans ?_
    rw [val_main_v8_apply]
    congr 1
    funext d; apply Fin.ext
    match d with
    | ⟨0, _⟩ => rfl
    | ⟨1, _⟩ => show 2 + a.val = a.val + k.val / 384; omega
    | ⟨2, _⟩ => show 2 + b.val = b.val + k.val / 128 % 3; omega
    | ⟨3, _⟩ => show k.val - 1024 = k.val % 128; omega

/-- The reference's result is the batch convolution of its arguments, the filter matrix its own scattered sum. -/
theorem reference_eq (x0 : FVec Ideal S16x56x56x128 .f32) (x1 : FVec Ideal S58982 .f32) (x2 : FVec Ideal S256 .f32)
    (x3 : IVec S58982x2 32) :
    val_main_v35 (F := Ideal) x0 x1 x2 x3 = conv x0 (val_main_v29 (F := Ideal) x1 x3) x2 := by
  funext i
  obtain ⟨s, a, b, n, rfl⟩ : ∃ (s : Fin 16) (a b : Fin 54) (n : Fin 256), i = ix4 s a b n := ⟨i 0, i 1, i 2, i 3, eq_ix4 i⟩
  have hs : s.val < 16 := s.isLt
  have ha : a.val < 54 := a.isLt
  have hb : b.val < 54 := b.isLt
  have hn : n.val < 256 := n.isLt
  rw [val_main_v35_apply, val_main_v34_apply, val_main_v33_apply, val_main_v30_apply, val_main_v32_apply,
    val_main_v31_apply, val_main_call0_v0_apply, val_main_call0_cst_apply]
  unfold conv cell
  show max ((∑ k : Fin 1152, _ * _) + _) _ = max ((∑ k : Fin 1152, _ * _) + _) _
  refine congrArg₂ max (congrArg₂ (· + ·) (Finset.sum_congr rfl fun k _ => ?_) ?_) rfl
  · have hk : k.val < 1152 := k.isLt
    have el : idx_main_v10 (lidx_main_v30 (idx_main_v35 (ix4 s a b n)) k) = ix4 s a b k := by
      funext d; apply Fin.ext
      match d with
      | ⟨0, _⟩ => show ((((s.val * 54 + a.val) * 54 + b.val) * 256 + n.val) / 256 * 1152 + k.val) / 3359232 = s.val; omega
      | ⟨1, _⟩ => show ((((s.val * 54 + a.val) * 54 + b.val) * 256 + n.val) / 256 * 1152 + k.val) / 62208 % 54 = a.val; omega
      | ⟨2, _⟩ => show ((((s.val * 54 + a.val) * 54 + b.val) * 256 + n.val) / 256 * 1152 + k.val) / 1152 % 54 = b.val; omega
      | ⟨3, _⟩ => show ((((s.val * 54 + a.val) * 54 + b.val) * 256 + n.val) / 256 * 1152 + k.val) % 1152 = k.val; omega
    have er : ridx_main_v30 (idx_main_v35 (ix4 s a b n)) k = ix2 k n := by
      funext d; apply Fin.ext
      match d with
      | ⟨0, _⟩ => rfl
      | ⟨1, _⟩ => show ((((s.val * 54 + a.val) * 54 + b.val) * 256 + n.val) % 256) = n.val; omega
    rw [val_main_v10_apply, el, er, patches_apply]
  · congr 1
    funext d; apply Fin.ext
    match d with
    | ⟨0, _⟩ => show ((((s.val * 54 + a.val) * 54 + b.val) * 256 + n.val) % 256) = n.val; omega

end Cert.ReferenceIdeal.RefValue

end
-- ==== Proof.lean ====
/-
  A sparse 3×3 convolution layer, computed two ways, gives one result over the extended reals.

  Both programs first scatter the sparse filter values into a dense 1152 × 256 matrix W (the same operations on the same two
  arguments on both sides: W is never opened) and then compute, for every image s, pixel (a, b) and filter n,
      out[s, a, b, n] = max( Σ_k x[s, a + k/384, b + (k/128)%3, k%128] · W[k, n] + bias[n], 0 )        (ConvSpec.conv).
  The kernel does it image by image: it lays the nine shifted windows of the image side by side in a scratch matrix (the patch
  matrix), multiplies once by W, adds the bias, clamps, and writes the image's block of the result (Body, Entry, Result). The
  reference joins the nine shifted windows of the whole batch along the channel axis, flattens to one tall matrix and multiplies
  once by W (RefValue). Index by index the two are the same sum of the same products in the same order of k, so no law of
  the extended reals beyond reading both sides at an index is needed, and the finiteness of the inputs is never used.

  The three frames are the generated frame runs (the reference's is its generated run with the result dropped); the
  idealization rewrote no operation, so there is nothing to preserve.
-/
import proofs.«143364_j59949153517679_2_alg».proof.Defs
import proofs.«143364_j59949153517679_2_alg».proof.Proof.Gen.Kernel
import proofs.«143364_j59949153517679_2_alg».proof.Proof.Gen.Kernel.Skeleton
import proofs.«143364_j59949153517679_2_alg».proof.Proof.Gen.Kernel.Launch
import proofs.«143364_j59949153517679_2_alg».proof.Proof.Gen.Kernel.Points
import proofs.«143364_j59949153517679_2_alg».proof.Proof.Gen.Kernel.Frame
import proofs.«143364_j59949153517679_2_alg».proof.Proof.Gen.KernelIdeal
import proofs.«143364_j59949153517679_2_alg».proof.Proof.Gen.KernelIdeal.Skeleton
import proofs.«143364_j59949153517679_2_alg».proof.Proof.Gen.KernelIdeal.Launch
import proofs.«143364_j59949153517679_2_alg».proof.Proof.Gen.KernelIdeal.Points
import proofs.«143364_j59949153517679_2_alg».proof.Proof.Gen.KernelIdeal.Frame
import proofs.«143364_j59949153517679_2_alg».proof.Proof.Gen.KernelIdeal.Value
import proofs.«143364_j59949153517679_2_alg».proof.Proof.Gen.ReferenceIdeal
import proofs.«143364_j59949153517679_2_alg».proof.Proof.Gen.ReferenceIdeal.Run
import proofs.«143364_j59949153517679_2_alg».proof.Proof.Gen.ReferenceIdeal.Read
import proofs.«143364_j59949153517679_2_alg».proof.Proof.Gen.Pre_finite_inputs
import proofs.«143364_j59949153517679_2_alg».proof.Proof.Result
import proofs.«143364_j59949153517679_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the batch convolution of the (agreeing) arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefValue.reference_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
